-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S2x16x2048x64 : Shape := ⟨4, ![2, 16, 2048, 64]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_

variable [Facts]

def fn {F : FTy → Type} [FloatOps F] (main_arg0 : FVec F S2x16x2048x2048 .f32) (main_arg1 : FVec F S2x16x2048x64 .f32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  main_v8
-- ==== Kernel.lean ====
abbrev S2x16x2048x2048 : Shape := ⟨4, ![2, 16, 2048, 2048]⟩
abbrev S2x16x2048x64 : Shape := ⟨4, ![2, 16, 2048, 64]⟩
abbrev S32x2048x2048 : Shape := ⟨3, ![32, 2048, 2048]⟩
abbrev S32x2048x64 : Shape := ⟨3, ![32, 2048, 64]⟩
abbrev S_ : Shape := ⟨0, ![]⟩
abbrev S32x2048x1 : Shape := ⟨3, ![32, 2048, 1]⟩
abbrev S32x2048x63 : Shape := ⟨3, ![32, 2048, 63]⟩
abbrev S32x2048x128 : Shape := ⟨3, ![32, 2048, 128]⟩
abbrev S1x512x2048 : Shape := ⟨3, ![1, 512, 2048]⟩
abbrev S1x2048x128 : Shape := ⟨3, ![1, 2048, 128]⟩
abbrev S1x512x64 : Shape := ⟨3, ![1, 512, 64]⟩
abbrev S512x2048 : Shape := ⟨2, ![512, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩
abbrev S512x64 : Shape := ⟨2, ![512, 64]⟩

abbrev nBuf : Space → Nat
  | .hbm => 12
  | .vmem => 6
  | .smem => 0
  | _ => 0

abbrev bufTy : (tb : Table) → Fin (tcTables nBuf tb) → BufTy
  | .hbm, ⟨0, _⟩ => ⟨S2x16x2048x2048, .f32⟩
  | .hbm, ⟨1, _⟩ => ⟨S2x16x2048x64, .f32⟩
  | .hbm, ⟨2, _⟩ => ⟨S32x2048x2048, .f32⟩
  | .hbm, ⟨3, _⟩ => ⟨S32x2048x64, .f32⟩
  | .hbm, ⟨4, _⟩ => ⟨S32x2048x64, .bf16⟩
  | .hbm, ⟨5, _⟩ => ⟨S_, .bf16⟩
  | .hbm, ⟨6, _⟩ => ⟨S32x2048x1, .bf16⟩
  | .hbm, ⟨7, _⟩ => ⟨S_, .bf16⟩
  | .hbm, ⟨8, _⟩ => ⟨S32x2048x63, .bf16⟩
  | .hbm, ⟨9, _⟩ => ⟨S32x2048x128, .bf16⟩
  | .hbm, ⟨10, _⟩ => ⟨S32x2048x64, .f32⟩
  | .hbm, ⟨11, _⟩ => ⟨S2x16x2048x64, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x128, .bf16⟩
  | .local _ .vmem, ⟨3, _⟩ => ⟨S1x2048x128, .bf16⟩
  | .local _ .vmem, ⟨4, _⟩ => ⟨S1x512x64, .f32⟩
  | .local _ .vmem, ⟨5, _⟩ => ⟨S1x512x64, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S2x16x2048x2048_S32x2048x2048 : S2x16x2048x2048.ShapeCasts S32x2048x2048
  shapeCasts_S2x16x2048x64_S32x2048x64 : S2x16x2048x64.ShapeCasts S32x2048x64
  bitsLt_bf16_f32 : FTy.bits .bf16 < FTy.bits .f32
  bcast_S_S32x2048x1 : S_.BroadcastsInDim S32x2048x1 (![] : Fin 0 → Fin S32x2048x1.rank)
  bcast_S_S32x2048x63 : S_.BroadcastsInDim S32x2048x63 (![] : Fin 0 → Fin S32x2048x63.rank)
  concatenates_S32x2048x64_S32x2048x1_S32x2048x63_S32x2048x128_d2 : Shape.Concatenates [S32x2048x64, S32x2048x1, S32x2048x63] S32x2048x128 2
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S512x128_o0_0_S512x64 : S512x128.Slices ![0, 0] S512x64
  slices_S512x128_o0_64_S512x1 : S512x128.Slices ![0, 64] S512x1
  broadcasts_S512x1_S512x64 : S512x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  shapeCasts_S512x64_S1x512x64 : S512x64.ShapeCasts S1x512x64
  shapeCasts_S32x2048x64_S2x16x2048x64 : S32x2048x64.ShapeCasts S2x16x2048x64
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S32x2048x2048.size a
  hwx0_0 : ∀ i : grid0.Coords, EltTy.bits .f32 = 32 ∨ (Rect.block (s := S32x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S32x2048x128.size a
  hwx0_1 : ∀ i : grid0.Coords, EltTy.bits .bf16 = 32 ∨ (Rect.block (s := S32x2048x128) S1x2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x64.size a ≤ S32x2048x64.size a
  hwx0_2 : ∀ i : grid0.Coords, EltTy.bits .f32 = 32 ∨ (Rect.block (s := S32x2048x64) S1x512x64.size (cc0_transform_2 i) (hinb0_2 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S2x16x2048x64 : Shape := ⟨4, ![2, 16, 2048, 64]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 17
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S2x16x2048x64, .f32⟩
  | .hbm, ⟨2, _⟩ => ⟨S_, .f32⟩
  | .hbm, ⟨3, _⟩ => ⟨S2x16x2048, .f32⟩
  | .hbm, ⟨4, _⟩ => ⟨S_, .f32⟩
  | .hbm, ⟨5, _⟩ => ⟨S2x16x2048, .f32⟩
  | .hbm, ⟨6, _⟩ => ⟨S2x16x2048, .f32⟩
  | .hbm, ⟨7, _⟩ => ⟨S2x16x2048x1, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .f32⟩
  | .hbm, ⟨12, _⟩ => ⟨S2x16x2048, .f32⟩
  | .hbm, ⟨13, _⟩ => ⟨S2x16x2048x1, .f32⟩
  | .hbm, ⟨14, _⟩ => ⟨S2x16x2048x2048, .f32⟩
  | .hbm, ⟨15, _⟩ => ⟨S2x16x2048x2048, .f32⟩
  | .hbm, ⟨16, _⟩ => ⟨S2x16x2048x64, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRegion.lean ====
/-
  The run of `Kernel`'s @main, read at any float instance.

  @main is eight host lines, one region over the grid 32 × 4, and one host line.  The host lines before the region
  regroup the two arguments as 32 slabs (scores: 32 × 2048 × 2048, values: 32 × 2048 × 64), change the values' format,
  and widen them to 128 columns: the values, then a column of ones, then 63 columns of zeros.  At the point (b, q) the
  region hands the body rows 512 q … 512 q + 511 of slab b of the scores and the whole widened slab b of the values, and
  writes back rows 512 q … 512 q + 511 of slab b of the result; the body is one function of the two blocks it is handed
  (it also reads the result block's old contents, and discards them).  The host line after the region regroups the 32
  result slabs as 2 × 16.

  Stated here: the contents every buffer has when the region is entered (`V`), the block of each window at a point
  (`iblk`), the block the body leaves (`outBlock`), the body's triple, the region's proof data, and the run of @main:
  every array of the region ends at what the write-backs leave, every other buffer at what the last host line leaves,
  and the two arguments are never written.
-/
import proofs.«126663_j85624468013185_2_alg».proof.Proof.Gen.Kernel.Launch
import proofs.«126663_j85624468013185_2_alg».proof.Proof.Gen.Kernel.Skeleton
import proofs.«126663_j85624468013185_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What every buffer of core `c` holds when the region is entered: the launch contents after the eight host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only buffers the region leaves to @main. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays (it writes the regrouped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the scores argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host line before the region writes the values argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the line after it: the scores argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- And the values argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result window's buffer -/

abbrev rScores : Rect S1x512x2048 := Rect.unit (s := S1x512x2048) ![0, 0, 0] S1x512x2048.size inb_S1x512x2048_S1x512x2048_0_0_0
abbrev rValues : Rect S1x2048x128 := Rect.unit (s := S1x2048x128) ![0, 0, 0] S1x2048x128.size inb_S1x2048x128_S1x2048x128_0_0_0
abbrev rOut : Rect S1x512x64 := Rect.unit (s := S1x512x64) ![0, 0, 0] S1x512x64.size inb_S1x512x64_S1x512x64_0_0_0

/-- The result block the body leaves, from the scores block and the widened values block it is handed: its one store,
    which covers the block. -/
def outBlock (x0 : Vec F S1x512x2048 .f32) (x1 : Vec F S1x2048x128 .bf16) : Vec F S1x512x64 .f32 :=
  View.canon [⟨rOut, k0_pay1 (View.ld x0 rScores) (View.ld x1 rValues)⟩]

/-- The one store covers the whole block. -/
theorem outCover (p0 : Vec F S1x512x64 .f32) (y : S1x512x64.Idx) :
    ∃ pc ∈ ([⟨rOut, p0⟩] : List (View.Piece (Elt F) S1x512x64 .f32)), y ∈ pc.1.set :=
  View.cover_of_tiled [⟨rOut, p0⟩] S1x512x64.size (by rfl) y

/-! ## The body's triple -/

set_option maxHeartbeats 1000000 in
/-- The body on whole staging buffers — the two inputs at contents `x0`, `x1`, the result's at anything — runs to the
    end, leaves the inputs as they were and the result's buffer at `outBlock x0 x1`. -/
theorem sound_kernel (c : Dev nD) (E : Set ℕ) (i : grid0.Coords) (arg2 : Memref sig .tc .vmem S1x512x2048 .f32) (harg2 : arg2.IsWhole) (arg3 : Memref sig .tc .vmem S1x2048x128 .bf16) (harg3 : arg3.IsWhole) (arg4 : Memref sig .tc .vmem S1x512x64 .f32) (harg4 : arg4.IsWhole)
    (x0 : Vec F S1x512x2048 .f32) (x1 : Vec F S1x2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__softmax_pv_kernel i arg2 harg2 arg3 harg3 arg4 harg4) K := by
  simp only [cc0__softmax_pv_kernel_eq_skeleton]; unfold cc0__softmax_pv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- After the body at point `t` each input's buffer still holds its block and the result's holds `outBlock` of the two;
    the body uses nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

/-- The scores window's current buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The values window's current buffer holds its block at every point: fetched when the slab changes, and otherwise
    left in place by the body, the slab being the same. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each of the region's arrays holds what
    its write-backs leave, and every other buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.Kernel.Region

end
-- ==== Proof.KernelIdealRegion.lean ====
/-
  The run of `KernelIdeal`'s @main, read at any float instance.

  @main is eight host lines, one region over the grid 32 × 4, and one host line.  The host lines before the region
  regroup the two arguments as 32 slabs (scores: 32 × 2048 × 2048, values: 32 × 2048 × 64), change the values' format,
  and widen them to 128 columns: the values, then a column of ones, then 63 columns of zeros.  At the point (b, q) the
  region hands the body rows 512 q … 512 q + 511 of slab b of the scores and the whole widened slab b of the values, and
  writes back rows 512 q … 512 q + 511 of slab b of the result; the body is one function of the two blocks it is handed
  (it also reads the result block's old contents, and discards them).  The host line after the region regroups the 32
  result slabs as 2 × 16.

  Stated here: the contents every buffer has when the region is entered (`V`), the block of each window at a point
  (`iblk`), the block the body leaves (`outBlock`), the body's triple, the region's proof data, and the run of @main:
  every array of the region ends at what the write-backs leave, every other buffer at what the last host line leaves,
  and the two arguments are never written.
-/
import proofs.«126663_j85624468013185_2_alg».proof.Proof.Gen.KernelIdeal.Launch
import proofs.«126663_j85624468013185_2_alg».proof.Proof.Gen.KernelIdeal.Skeleton
import proofs.«126663_j85624468013185_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What every buffer of core `c` holds when the region is entered: the launch contents after the eight host lines. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the host line after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The line after the region touches only buffers the region leaves to @main. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the region's three arrays (it writes the regrouped result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.reshape_writes, Finset.mem_singleton] <;> exact StableHlo.devRef_ne_of_ne (by decide)

/-- No host line before the region writes the scores argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))
/-- No host line before the region writes the values argument. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.nary_writes, StableHlo.reshape_writes, Finset.mem_singleton]
    repeat' apply And.intro
    all_goals exact StableHlo.devRef_ne_of_ne (by decide)))

/-- Nor does the line after it: the scores argument ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- And the values argument ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result window's buffer -/

abbrev rScores : Rect S1x512x2048 := Rect.unit (s := S1x512x2048) ![0, 0, 0] S1x512x2048.size inb_S1x512x2048_S1x512x2048_0_0_0
abbrev rValues : Rect S1x2048x128 := Rect.unit (s := S1x2048x128) ![0, 0, 0] S1x2048x128.size inb_S1x2048x128_S1x2048x128_0_0_0
abbrev rOut : Rect S1x512x64 := Rect.unit (s := S1x512x64) ![0, 0, 0] S1x512x64.size inb_S1x512x64_S1x512x64_0_0_0

/-- The result block the body leaves, from the scores block and the widened values block it is handed: its one store,
    which covers the block. -/
def outBlock (x0 : Vec F S1x512x2048 .f32) (x1 : Vec F S1x2048x128 .bf16) : Vec F S1x512x64 .f32 :=
  View.canon [⟨rOut, k0_pay1 (View.ld x0 rScores) (View.ld x1 rValues)⟩]

/-- The one store covers the whole block. -/
theorem outCover (p0 : Vec F S1x512x64 .f32) (y : S1x512x64.Idx) :
    ∃ pc ∈ ([⟨rOut, p0⟩] : List (View.Piece (Elt F) S1x512x64 .f32)), y ∈ pc.1.set :=
  View.cover_of_tiled [⟨rOut, p0⟩] S1x512x64.size (by rfl) y

/-! ## The body's triple -/

set_option maxHeartbeats 1000000 in
/-- The body on whole staging buffers — the two inputs at contents `x0`, `x1`, the result's at anything — runs to the
    end, leaves the inputs as they were and the result's buffer at `outBlock x0 x1`. -/
theorem sound_kernel (c : Dev nD) (E : Set ℕ) (i : grid0.Coords) (arg2 : Memref sig .tc .vmem S1x512x2048 .f32) (harg2 : arg2.IsWhole) (arg3 : Memref sig .tc .vmem S1x2048x128 .bf16) (harg3 : arg3.IsWhole) (arg4 : Memref sig .tc .vmem S1x512x64 .f32) (harg4 : arg4.IsWhole)
    (x0 : Vec F S1x512x2048 .f32) (x1 : Vec F S1x2048x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (outBlock x0 x1)) -∗ K ⟨⟩))
      ⊢ wp frame (wpE (defs₀ (F := F)) Variants.none c none) E (cc0__softmax_pv_kernel i arg2 harg2 arg3 harg3 arg4 harg4) K := by
  simp only [cc0__softmax_pv_kernel_eq_skeleton]; unfold cc0__softmax_pv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (outCover _)

/-! ## The region's proof data -/

/-- After the body at point `t` each input's buffer still holds its block and the result's holds `outBlock` of the two;
    the body uses nothing else. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlock (iblk m c 0 t) (iblk m c 1 t) := by dsimp only [dats]

/-- The scores window's current buffer holds its block at every point (it is fetched at every point). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- The values window's current buffer holds its block at every point: fetched when the slab changes, and otherwise
    left in place by the body, the slab being the same. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault; at the end each of the region's arrays holds what
    its write-backs leave, and every other buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hΦ := fun _ _ => rfl)

/-- The two arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Region

end
-- ==== Proof.Rows.lean ====
/-
  One row of attention with the normalisation done two ways, on the extended reals.

  For a row of scores `s k` and a column of values `w k` (k over a finite nonempty range), let `μ` be the largest score and
  `e k = exp (s k - μ)`.  The kernel forms `(∑ e k · w k) / (∑ e k · 1)`: it multiplies the unnormalised weights into the
  values and into a column of ones, and divides the two sums.  The reference forms `∑ (e k / (0 + ∑ e k')) · w k`: it
  normalises the weights first.  Both are written here over an arbitrary finite index type; the literals stay as the words
  the programs spell (−∞ as the start of the maximum, 1.0 in the ones column, 0.0 as the start of the reference's sum).
-/
import Idealize.ShloMosaic.PureOps.Ideal

noncomputable section

open scoped BigOperators

namespace Cert.Rows

open Idealize.ShloMosaic

variable {ι : Type} [Fintype ι]

/-- The largest score of a row, as both programs fold it: `max` over the row from −∞. -/
def rowMax (s : ι → EReal) : EReal := Finset.univ.fold max (Ideal.ofBits .f32 0xFF800000#32) s

/-- The kernel's row: the weights `exp (s k - rowMax s)` summed against the values and against a column of ones, then divided. -/
def kerRow (s w : ι → EReal) : EReal :=
  Ideal.div (∑ k, Ideal.exp (s k - rowMax s) * w k) (∑ k, Ideal.exp (s k - rowMax s) * Ideal.ofBits .bf16 0x3F80#16)

/-- The reference's row: the maximum once more against −∞, the weights divided by their sum (started at 0.0), then summed
    against the values. -/
def refRow (s w : ι → EReal) : EReal :=
  ∑ k, Ideal.div (Ideal.exp (s k - max (Ideal.ofBits .f32 0xFF800000#32) (rowMax s)))
      (Ideal.ofBits .f32 0x00000000#32 + ∑ k', Ideal.exp (s k' - max (Ideal.ofBits .f32 0xFF800000#32) (rowMax s))) * w k

end Cert.Rows

end
-- ==== Proof.BodyRow.lean ====
/-
  The block the idealized body stores, read at one element.

  The body is handed a block of scores `x0` (1 × 512 × 2048) and a block of widened values `x1` (1 × 2048 × 128).  Row by row
  it takes the largest score `μ r`, the weights `e r k = exp (x0 r k - μ r)`, and ONE product of the weights with the
  widened values, `P r c = ∑ k, e r k · x1 k c`.  Columns 0 … 63 of `P` are the weighted values, column 64 is the weights
  against the column of ones, and the stored element (r, d), d < 64, is `P r d / P r 64`.  A change of float format is the
  identity on the extended reals, so the narrowing of the weights before the product does nothing here.
-/
import proofs.«126663_j85624468013185_2_alg».proof.Proof.Gen.KernelIdeal.Skeleton
import proofs.«126663_j85624468013185_2_alg».proof.Proof.Rows
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The product's dimension numbers: rows × (contracted) against (contracted) × columns. -/
abbrev D := dot_S512x2048_S2048x128_S512x128_1_0_0_1_n_n

/-- The scores block as a 512 × 2048 matrix. -/
def sc (x0 : FVec Ideal S1x512x2048 .f32) : FVec Ideal S512x2048 .f32 :=
  shapeCast S512x2048 x0 shapeCasts_S1x512x2048_S512x2048

/-- The widened values block as a 2048 × 128 matrix. -/
def vm (x1 : FVec Ideal S1x2048x128 .bf16) : FVec Ideal S2048x128 .bf16 :=
  shapeCast S2048x128 x1 shapeCasts_S1x2048x128_S2048x128

/-- Each row's largest score. -/
def mu (x0 : FVec Ideal S1x512x2048 .f32) : FVec Ideal S512 .f32 :=
  multiReduction .maximumf [1] S512 (sc x0) 0xFF800000#32 reduces_S512x2048_S512 (.inl rfl) rfl

/-- The weights `exp (score - row maximum)`, narrowed (the identity here). -/
def wt (x0 : FVec Ideal S1x512x2048 .f32) : FVec Ideal S512x2048 .bf16 :=
  truncf .bf16 (exp (subf (sc x0) (broadcastTo S512x2048 (shapeCast S512x1 (mu x0) shapeCasts_S512_S512x1) broadcasts_S512x1_S512x2048))) bitsLt_bf16_f32

/-- The one product of the weights with the widened values. -/
def pv (x0 : FVec Ideal S1x512x2048 .f32) (x1 : FVec Ideal S1x2048x128 .bf16) : FVec Ideal S512x128 .f32 :=
  matmul D none (wt x0) (vm x1) (constant (F := Ideal) S512x128 .f32 0x00000000#32)

/-- The stored block is the quotient of the first 64 columns of the product by its column 64. -/
theorem pay_eq (x0 : FVec Ideal S1x512x2048 .f32) (x1 : FVec Ideal S1x2048x128 .bf16) :
    k0_pay1 (F := Ideal) x0 x1 = shapeCast S1x512x64 (divf (extractStridedSlice S512x64 ![0, 0] (pv x0 x1) slices_S512x128_o0_0_S512x64)
      (broadcastTo S512x64 (extractStridedSlice S512x1 ![0, 64] (pv x0 x1) slices_S512x128_o0_64_S512x1) broadcasts_S512x1_S512x64)) shapeCasts_S512x64_S1x512x64 := rfl

theorem sc_apply (x0 : FVec Ideal S1x512x2048 .f32) (r : Fin 512) (k : Fin 2048) :
    sc x0 (ix2 r k) = x0 (ix3 (0 : Fin 1) r k) :=
  shapeCast_apply x0 shapeCasts_S1x512x2048_S512x2048 (ix2 r k) (ix3 (0 : Fin 1) r k) (by
    rw [Shape.rowMajor_val_three, Shape.rowMajor_val_two]
    show ((0 : ℕ) * 512 + r.val) * 2048 + k.val = r.val * 2048 + k.val
    omega)

theorem vm_apply (x1 : FVec Ideal S1x2048x128 .bf16) (k : Fin 2048) (c : Fin 128) :
    vm x1 (ix2 k c) = x1 (ix3 (0 : Fin 1) k c) :=
  shapeCast_apply x1 shapeCasts_S1x2048x128_S2048x128 (ix2 k c) (ix3 (0 : Fin 1) k c) (by
    rw [Shape.rowMajor_val_three, Shape.rowMajor_val_two]
    show ((0 : ℕ) * 2048 + k.val) * 128 + c.val = k.val * 128 + c.val
    omega)

/-- A row's maximum is the fold of `max` from −∞ over the row. -/
theorem mu_apply (x0 : FVec Ideal S1x512x2048 .f32) (r : Fin 512) :
    mu x0 (ix1 r) = Cert.Rows.rowMax (fun k : Fin 2048 => x0 (ix3 (0 : Fin 1) r k)) :=
  (Ideal.multiReduction_maximumf_single (sc x0) 0xFF800000#32 reduces_S512x2048_S512 (.inl rfl) rfl (ix1 r)).trans
    (congrArg (Finset.univ.fold max (Ideal.ofBits .f32 0xFF800000#32)) (funext fun k : Fin 2048 =>
      (congrArg (sc x0) (funext fun a => Fin.ext (by match a with | ⟨0, _⟩ => rfl | ⟨1, _⟩ => rfl))).trans (sc_apply x0 r k)))

/-- A weight at (r, k). -/
theorem wt_apply (x0 : FVec Ideal S1x512x2048 .f32) (r : Fin 512) (k : Fin 2048) :
    wt x0 (ix2 r k) = Ideal.exp (x0 (ix3 (0 : Fin 1) r k) - Cert.Rows.rowMax (fun k' : Fin 2048 => x0 (ix3 (0 : Fin 1) r k'))) := by
  show Ideal.exp (sc x0 (ix2 r k) - broadcastTo S512x2048 (shapeCast S512x1 (mu x0) shapeCasts_S512_S512x1) broadcasts_S512x1_S512x2048 (ix2 r k)) = _
  rw [sc_apply, broadcastTo_apply _ broadcasts_S512x1_S512x2048 (ix2 r k) (ix2 r (0 : Fin 1)) (fun a => by
      match a with
      | ⟨0, _⟩ => show r.val = if (512 : ℕ) = 1 then 0 else r.val; rw [if_neg (by decide)]
      | ⟨1, _⟩ => show (0 : ℕ) = if (1 : ℕ) = 1 then 0 else k.val; rw [if_pos rfl]),
    shapeCast_apply (mu x0) shapeCasts_S512_S512x1 (ix2 r (0 : Fin 1)) (ix1 r) (by
      rw [Shape.rowMajor_val_one, Shape.rowMajor_val_two]
      show r.val = r.val * 1 + 0
      omega),
    mu_apply]

theorem lhs0 (j : S512x128.Idx) (q : D.contr.Idx) : (D.lhsIdx j q 0).val = (j 0).val := by
  unfold DotDims.lhsIdx
  rw [dif_neg (show ¬(0 : Fin S512x2048.rank) ∈ D.lhsBatch by decide), dif_pos (show (0 : Fin S512x2048.rank) ∈ D.lhsNonContracting by decide)]
  rfl
theorem rhs1 (j : S512x128.Idx) (q : D.contr.Idx) : (D.rhsIdx j q 1).val = (j 1).val := by
  unfold DotDims.rhsIdx
  rw [dif_neg (show ¬(1 : Fin S2048x128.rank) ∈ D.rhsBatch by decide), dif_pos (show (1 : Fin S2048x128.rank) ∈ D.rhsNonContracting by decide)]
  rfl

/-- The product at (r, c) is the sum over the contracted index. -/
theorem mm_apply (p : FVec Ideal S512x2048 .bf16) (q : FVec Ideal S2048x128 .bf16) (r : Fin 512) (c : Fin 128) :
    matmul D none p q (constant (F := Ideal) S512x128 .f32 0x00000000#32) (ix2 r c) = ∑ k : Fin 2048, p (ix2 r k) * q (ix2 k c) := by
  refine (Ideal.matmul_constant_zero_apply D none p q (ix2 r c)).trans ?_
  rw [← Equiv.sum_comp (contrEquiv1 D 2048 rfl rfl).symm]
  refine Finset.sum_congr rfl fun k _ => ?_
  have hk := contrEquiv1_symm_val D 2048 rfl rfl k
  have el : D.lhsIdx (ix2 r c) ((contrEquiv1 D 2048 rfl rfl).symm k) = ix2 r k := funext fun a => Fin.ext (by
    match a with
    | ⟨0, _⟩ => exact lhs0 _ _
    | ⟨1, _⟩ => exact (D.lhsIdx_val_of_single rfl _ _).trans hk)
  have er : D.rhsIdx (ix2 r c) ((contrEquiv1 D 2048 rfl rfl).symm k) = ix2 k c := funext fun a => Fin.ext (by
    match a with
    | ⟨0, _⟩ => exact (D.rhsIdx_val_of_single rfl _ _).trans hk
    | ⟨1, _⟩ => exact rhs1 _ _)
  rw [el, er]

theorem pv_apply (x0 : FVec Ideal S1x512x2048 .f32) (x1 : FVec Ideal S1x2048x128 .bf16) (r : Fin 512) (c : Fin 128) :
    pv x0 x1 (ix2 r c) = ∑ k : Fin 2048, Ideal.exp (x0 (ix3 (0 : Fin 1) r k) - Cert.Rows.rowMax (fun k' : Fin 2048 => x0 (ix3 (0 : Fin 1) r k'))) * x1 (ix3 (0 : Fin 1) k c) := by
  unfold pv
  rw [mm_apply]
  exact Finset.sum_congr rfl fun k _ => by rw [wt_apply, vm_apply]

/-- THE STORED ELEMENT: when column 64 of the widened values is the ones word, element (r, d) of the stored block is the
    kernel's row function of row r of the scores and column d of the values. -/
theorem pay_apply (x0 : FVec Ideal S1x512x2048 .f32) (x1 : FVec Ideal S1x2048x128 .bf16)
    (hones : ∀ k : Fin 2048, x1 (ix3 (0 : Fin 1) k (64 : Fin 128)) = Ideal.ofBits .bf16 0x3F80#16)
    (r : Fin 512) (d : Fin 64) :
    k0_pay1 (F := Ideal) x0 x1 (ix3 (0 : Fin 1) r d)
      = Cert.Rows.kerRow (fun k : Fin 2048 => x0 (ix3 (0 : Fin 1) r k)) (fun k : Fin 2048 => x1 (ix3 (0 : Fin 1) k (d.castLE (by decide)))) := by
  rw [pay_eq]
  refine (shapeCast_apply _ shapeCasts_S512x64_S1x512x64 (ix3 (0 : Fin 1) r d) (ix2 r d) (by
    rw [Shape.rowMajor_val_three, Shape.rowMajor_val_two]
    show r.val * 64 + d.val = ((0 : ℕ) * 512 + r.val) * 64 + d.val
    omega)).trans ?_
  show Ideal.div (extractStridedSlice S512x64 ![0, 0] (pv x0 x1) slices_S512x128_o0_0_S512x64 (ix2 r d))
    (broadcastTo S512x64 (extractStridedSlice S512x1 ![0, 64] (pv x0 x1) slices_S512x128_o0_64_S512x1) broadcasts_S512x1_S512x64 (ix2 r d)) = _
  rw [extractStridedSlice_apply ![0, 0] (pv x0 x1) slices_S512x128_o0_0_S512x64 (ix2 r d) (ix2 r (d.castLE (by decide))) (fun a => by
      match a with
      | ⟨0, _⟩ => show r.val = 0 + r.val; omega
      | ⟨1, _⟩ => show d.val = 0 + d.val; omega),
    broadcastTo_apply _ broadcasts_S512x1_S512x64 (ix2 r d) (ix2 r (0 : Fin 1)) (fun a => by
      match a with
      | ⟨0, _⟩ => show r.val = if (512 : ℕ) = 1 then 0 else r.val; rw [if_neg (by decide)]
      | ⟨1, _⟩ => show (0 : ℕ) = if (1 : ℕ) = 1 then 0 else d.val; rw [if_pos rfl]),
    extractStridedSlice_apply ![0, 64] (pv x0 x1) slices_S512x128_o0_64_S512x1 (ix2 r (0 : Fin 1)) (ix2 r (64 : Fin 128)) (fun a => by
      match a with
      | ⟨0, _⟩ => show r.val = 0 + r.val; omega
      | ⟨1, _⟩ => show (64 : ℕ) = 64 + 0; rfl),
    pv_apply, pv_apply]
  unfold Cert.Rows.kerRow
  refine congrArg (Ideal.div _) (Finset.sum_congr rfl fun k _ => ?_)
  rw [hones k]

end Cert.KernelIdeal.Body

end
-- ==== Proof.EntryArrays.lean ====
/-
  What the region finds in its two input arrays, element by element, at the ideal instance.

  Slab `16 a + b` of the regrouped scores is slab (a, b) of the scores argument.  The widened values have 128 columns:
  columns 0 … 63 of slab `16 a + b` are slab (a, b) of the values argument (the change of format is the identity),
  column 64 is the ones word, and the rest are the zero word (never read here).
-/
import proofs.«126663_j85624468013185_2_alg».proof.Proof.KernelIdealRegion
import Idealize.ShloMosaic.Lib.ValueIdx
import Idealize.ShloMosaic.Lib.Pipeline.Value
import Idealize.ShloMosaic.Lib.StableHlo.Run

noncomputable section

namespace Cert.KernelIdeal.Entry

open Cert.KernelIdeal Cert.KernelIdeal.Gen Cert.KernelIdeal.Region
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The regrouped scores are the scores argument, recast. -/
theorem scores_eq (c : Dev nD) :
    (V m c main_v0 : S32x2048x2048.Idx → EReal)
      = shapeCast S32x2048x2048 (m ((c : Thread nD τ).loc main_arg0)) shapeCasts_S2x16x2048x2048_S32x2048x2048 := by
  show StableHlo.after hostOps0 (fun b => m (c, b)) (Proc.devRef .tc main_v0) = _
  after_results <;> rfl

/-- Slab `16 a + b` of the regrouped scores is slab (a, b) of the argument. -/
theorem scores_apply (c : Dev nD) (a : Fin 2) (b : Fin 16) (r k : Fin 2048) :
    (V m c main_v0 : S32x2048x2048.Idx → EReal) (ix3 (⟨a.val * 16 + b.val, by omega⟩ : Fin 32) r k)
      = m ((c : Thread nD τ).loc main_arg0) (ix4 a b r k) := by
  rw [scores_eq]
  exact shapeCast_apply _ shapeCasts_S2x16x2048x2048_S32x2048x2048 _ (ix4 a b r k) (by
    rw [Shape.rowMajor_val_three, Shape.rowMajor_val_four]
    show ((a.val * 16 + b.val) * 2048 + r.val) * 2048 + k.val = ((a.val * 16 + b.val) * 2048 + r.val) * 2048 + k.val
    rfl)

/-- The values, regrouped and changed of format. -/
theorem v2_eq (c : Dev nD) :
    (V m c main_v2 : S32x2048x64.Idx → EReal)
      = (truncf (F := Ideal) .bf16 (shapeCast S32x2048x64 (m ((c : Thread nD τ).loc main_arg1)) shapeCasts_S2x16x2048x64_S32x2048x64) bitsLt_bf16_f32 : S32x2048x64.Idx → EReal) := by
  show StableHlo.after hostOps0 (fun b => m (c, b)) (Proc.devRef .tc main_v2) = _
  after_results <;> rfl

/-- The column of ones. -/
theorem v3_eq (c : Dev nD) :
    (V m c main_v3 : S32x2048x1.Idx → EReal)
      = (broadcastInDim S32x2048x1 ![] bcast_S_S32x2048x1 (constant (F := Ideal) S_ .bf16 0x3F80#16) : S32x2048x1.Idx → EReal) := by
  show StableHlo.after hostOps0 (fun b => m (c, b)) (Proc.devRef .tc main_v3) = _
  after_results <;> rfl

/-- The three pieces of the widened values, in column order. -/
abbrev pieces (c : Dev nD) : List ((s : Shape) × (s.Idx → EReal)) :=
  [⟨S32x2048x64, (V m c main_v2 : S32x2048x64.Idx → EReal)⟩, ⟨S32x2048x1, (V m c main_v3 : S32x2048x1.Idx → EReal)⟩,
    ⟨S32x2048x63, (V m c main_v4 : S32x2048x63.Idx → EReal)⟩]

/-- The widened values are the three pieces laid side by side along the columns. -/
theorem v5_eq (c : Dev nD) :
    (V m c main_v5 : S32x2048x128.Idx → EReal)
      = concatenate S32x2048x128 2 (pieces m c) concatenates_S32x2048x64_S32x2048x1_S32x2048x63_S32x2048x128_d2 := by
  show StableHlo.after hostOps0 (fun b => m (c, b)) (Proc.devRef .tc main_v5)
    = concatenate S32x2048x128 2 [⟨S32x2048x64, StableHlo.after hostOps0 (fun b => m (c, b)) (Proc.devRef .tc main_v2)⟩,
        ⟨S32x2048x1, StableHlo.after hostOps0 (fun b => m (c, b)) (Proc.devRef .tc main_v3)⟩,
        ⟨S32x2048x63, StableHlo.after hostOps0 (fun b => m (c, b)) (Proc.devRef .tc main_v4)⟩] concatenates_S32x2048x64_S32x2048x1_S32x2048x63_S32x2048x128_d2
  simp only [after_cons, after_nil]
  rw [nary_result, nary_result_ne (h := by decide), nary_result_ne (h := by decide), nary_result_ne (h := by decide)]
  rfl

/-- Columns 0 … 63 of slab `16 a + b` of the widened values are slab (a, b) of the values argument. -/
theorem values_apply (c : Dev nD) (a : Fin 2) (b : Fin 16) (k : Fin 2048) (d : Fin 64) :
    (V m c main_v5 : S32x2048x128.Idx → EReal) (ix3 (⟨a.val * 16 + b.val, by omega⟩ : Fin 32) k (d.castLE (by decide)))
      = m ((c : Thread nD τ).loc main_arg1) (ix4 a b k d) := by
  rw [v5_eq]
  refine (concatenate_apply_piece (t := S32x2048x128) (2 : Fin 3) (pieces m c) concatenates_S32x2048x64_S32x2048x1_S32x2048x63_S32x2048x128_d2
    (ix3 (⟨a.val * 16 + b.val, by omega⟩ : Fin 32) k (d.castLE (by decide))) 0 (by show (0 : ℕ) < 3; omega)
    S32x2048x64 (V m c main_v2 : S32x2048x64.Idx → EReal) rfl rfl 0 rfl (ix3 (⟨a.val * 16 + b.val, by omega⟩ : Fin 32) k d) (fun e he => by
      match e with
      | ⟨0, _⟩ => rfl
      | ⟨1, _⟩ => rfl
      | ⟨2, _⟩ => exact absurd rfl he) (by show 0 + d.val = d.val; omega)).trans ?_
  rw [v2_eq]
  show shapeCast S32x2048x64 (m ((c : Thread nD τ).loc main_arg1)) shapeCasts_S2x16x2048x64_S32x2048x64 (ix3 (⟨a.val * 16 + b.val, by omega⟩ : Fin 32) k d) = _
  exact shapeCast_apply _ shapeCasts_S2x16x2048x64_S32x2048x64 _ (ix4 a b k d) (by
    rw [Shape.rowMajor_val_three, Shape.rowMajor_val_four]
    show ((a.val * 16 + b.val) * 2048 + k.val) * 64 + d.val = ((a.val * 16 + b.val) * 2048 + k.val) * 64 + d.val
    rfl)

/-- Column 64 of the widened values is the ones word, in every slab and row. -/
theorem ones_apply (c : Dev nD) (s : Fin 32) (k : Fin 2048) :
    (V m c main_v5 : S32x2048x128.Idx → EReal) (ix3 s k (64 : Fin 128)) = Ideal.ofBits .bf16 0x3F80#16 := by
  rw [v5_eq]
  refine (concatenate_apply_piece (t := S32x2048x128) (2 : Fin 3) (pieces m c) concatenates_S32x2048x64_S32x2048x1_S32x2048x63_S32x2048x128_d2
    (ix3 s k (64 : Fin 128)) 1 (by show (1 : ℕ) < 3; omega)
    S32x2048x1 (V m c main_v3 : S32x2048x1.Idx → EReal) rfl rfl 64 rfl (ix3 s k (0 : Fin 1)) (fun e he => by
      match e with
      | ⟨0, _⟩ => rfl
      | ⟨1, _⟩ => rfl
      | ⟨2, _⟩ => exact absurd rfl he) (by show 64 + 0 = 64; rfl)).trans ?_
  rw [v3_eq]
  rfl

end Cert.KernelIdeal.Entry

end
-- ==== Proof.KernelArray.lean ====
/-
  From the blocks to the result array, and from the result array to the result.

  At the point t = 4 b + q the region writes back rows 512 q … 512 q + 511 of slab b of the result.  Element (r, d) of
  that block is the row function of row 512 q + r of slab b of the scores and column d of slab b of the widened values,
  whose column 64 is the ones word: so every block is a block of ONE function `slabs` of the two input arrays, the 128
  blocks tile the result array, and the array ends at `slabs`.  The one host line after the region regroups the 32 slabs
  as 2 × 16, which is a recasting of indices.
-/
import proofs.«126663_j85624468013185_2_alg».proof.Proof.KernelIdealRegion
import proofs.«126663_j85624468013185_2_alg».proof.Proof.BodyRow
import proofs.«126663_j85624468013185_2_alg».proof.Proof.EntryArrays

noncomputable section

open scoped BigOperators

namespace Cert.KernelIdeal.Result

open Cert.KernelIdeal Cert.KernelIdeal.Gen Cert.KernelIdeal.Region Cert.KernelIdeal.Body Cert.KernelIdeal.Entry
open Idealize.ShloMosaic Idealize.ShloMosaic.TcCoe Idealize.ShloMosaic.ValueIdx Idealize.SL.Sem Idealize.ShloMosaic.StableHlo
open Idealize.ShloMosaic.Pipeline (Dat)

/-- The result array as one function of the regrouped scores and the widened values: element (s, r, d) is the row function
    of row r of slab s of the scores and column d of slab s of the values. -/
def slabs (s0 : S32x2048x2048.Idx → EReal) (vp : S32x2048x128.Idx → EReal) : S32x2048x64.Idx → EReal := fun i =>
  Cert.Rows.kerRow (fun k : Fin 2048 => s0 (ix3 (⟨(i 0).val, (i 0).isLt⟩ : Fin 32) (⟨(i 1).val, (i 1).isLt⟩ : Fin 2048) k))
    (fun k : Fin 2048 => vp (ix3 (⟨(i 0).val, (i 0).isLt⟩ : Fin 32) k (⟨(i 2).val, lt_of_lt_of_le (i 2).isLt (by decide)⟩ : Fin 128)))

/-- One stored element is one element of `slabs`, when the two blocks the body is handed are the blocks of the two arrays
    at slab `b`, rows `512 q …`, and column 64 of the widened values is the ones word. -/
theorem block_elem (x0 : FVec Ideal S1x512x2048 .f32) (x1 : FVec Ideal S1x2048x128 .bf16)
    (s0 : S32x2048x2048.Idx → EReal) (vp : S32x2048x128.Idx → EReal) (b q : ℕ) (hb : b < 32) (hq : q < 4)
    (h0 : ∀ (r : Fin 512) (k : Fin 2048), x0 (ix3 (0 : Fin 1) r k) = s0 (ix3 (⟨b, hb⟩ : Fin 32) (⟨q * 512 + r.val, by omega⟩ : Fin 2048) k))
    (h1 : ∀ (k : Fin 2048) (cc : Fin 128), x1 (ix3 (0 : Fin 1) k cc) = vp (ix3 (⟨b, hb⟩ : Fin 32) k cc))
    (hones : ∀ (s : Fin 32) (k : Fin 2048), vp (ix3 s k (64 : Fin 128)) = Ideal.ofBits .bf16 0x3F80#16)
    (y : S1x512x64.Idx) (i : S32x2048x64.Idx)
    (hi0 : (i 0).val = b) (hi1 : (i 1).val = q * 512 + (y 1).val) (hi2 : (i 2).val = (y 2).val) :
    k0_pay1 (F := Ideal) x0 x1 y = slabs s0 vp i := by
  obtain ⟨z, r, d, rfl⟩ : ∃ (z : Fin 1) (r : Fin 512) (d : Fin 64), y = ix3 z r d := ⟨y 0, y 1, y 2, eq_ix3 y⟩
  obtain rfl : z = 0 := Subsingleton.elim _ _
  rw [pay_apply x0 x1 (fun k => (h1 k 64).trans (hones _ k)) r d]
  unfold slabs
  refine congrArg₂ Cert.Rows.kerRow (funext fun k => ?_) (funext fun k => ?_)
  · rw [h0]
    exact congrArg s0 (funext fun a => Fin.ext (by
      match a with
      | ⟨0, _⟩ => exact hi0.symm
      | ⟨1, _⟩ => exact hi1.symm
      | ⟨2, _⟩ => rfl))
  · rw [h1]
    exact congrArg vp (funext fun a => Fin.ext (by
      match a with
      | ⟨0, _⟩ => exact hi0.symm
      | ⟨1, _⟩ => rfl
      | ⟨2, _⟩ => exact hi2.symm))

variable (m : (ℓ : Loc nD τ sig) → Buf (Elt Ideal) ℓ) (ρ : Dev nD → PrngReg)

theorem hz : (![0, 0, 0] : Fin 3 → Nat) = fun _ => 0 := funext fun a => by fin_cases a <;> rfl

/-- The three index maps over the grid: point t is (slab t / 4, row block t % 4); the values window takes the whole slab. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 3) = t.val / 4 ∧ win0_2.index t (1 : Fin 3) = t.val % 4 ∧ win0_2.index t (2 : Fin 3) = 0 :=
  (by decide +kernel : ∀ t : Fin grid0.N, _)

/-- WHAT POINT `t` WRITES BACK is block `t` of `slabs` of the two arrays the region finds. -/
theorem flushed_eq (c : Dev nD) (t : Fin cfg0.N) :
    (dats m 0 c).flushed 2 t = ((cfg0.win 2).blk t).view.read (Elt Ideal) (slabs (V m c main_v0) (V m c main_v5)) := by
  show (cfg0.win 2).cut (grid0.coords t) ((dats m 0 c).after 2 t) = _
  rw [after0_2]
  unfold outBlock
  rw [View.canon_unit_zero hz]
  simp only [View.ld_unit_zero (S := S1x512x2048) hz, View.ld_unit_zero (S := S1x2048x128) hz]
  obtain ⟨e0, e1, e2, e3, e4, e5, e6, e7, e8⟩ := idx_facts t
  have hN : t.val < 128 := lt_of_lt_of_eq t.isLt (show cfg0.N = 128 from N_0)
  funext j
  show k0_pay1 (F := Ideal) (iblk m c 0 t) (iblk m c 1 t) j = slabs (V m c main_v0) (V m c main_v5) (((cfg0.win 2).blk t).view.emb j)
  refine block_elem (iblk m c 0 t) (iblk m c 1 t) (V m c main_v0) (V m c main_v5) (t.val / 4) (t.val % 4) (by omega) (by omega)
    (fun r k => ?_) (fun k cc => ?_) (ones_apply m c) j _ ?_ ?_ ?_
  · show V m c main_v0 (((cfg0.win 0).blk t).view.emb (ix3 (0 : Fin 1) r k)) = _
    refine congrArg (V m c main_v0) (funext fun a => Fin.ext ?_)
    match a with
    | ⟨0, _⟩ => show win0_0.index t (0 : Fin 3) * 1 + 1 * (0 : ℕ) = t.val / 4; omega
    | ⟨1, _⟩ => show win0_0.index t (1 : Fin 3) * 512 + 1 * r.val = t.val % 4 * 512 + r.val; omega
    | ⟨2, _⟩ => show win0_0.index t (2 : Fin 3) * 2048 + 1 * k.val = k.val; omega
  · show V m c main_v5 (((cfg0.win 1).blk t).view.emb (ix3 (0 : Fin 1) k cc)) = _
    refine congrArg (V m c main_v5) (funext fun a => Fin.ext ?_)
    match a with
    | ⟨0, _⟩ => show win0_1.index t (0 : Fin 3) * 1 + 1 * (0 : ℕ) = t.val / 4; omega
    | ⟨1, _⟩ => show win0_1.index t (1 : Fin 3) * 2048 + 1 * k.val = k.val; omega
    | ⟨2, _⟩ => show win0_1.index t (2 : Fin 3) * 128 + 1 * cc.val = cc.val; omega
  · show win0_2.index t (0 : Fin 3) * 1 + 1 * (j 0).val = t.val / 4
    have hj : (j 0).val < 1 := (j 0).isLt
    omega
  · show win0_2.index t (1 : Fin 3) * 512 + 1 * (j 1).val = t.val % 4 * 512 + (j 1).val
    omega
  · show win0_2.index t (2 : Fin 3) * 64 + 1 * (j 2).val = (j 2).val
    omega

/-- An index of the result array is in point `t`'s block iff each coordinate is in the block's range on its axis. -/
theorem mem_blk (t : Fin cfg0.N) (i : S32x2048x64.Idx) :
    i ∈ ((cfg0.win 2).blk t).view.set ↔ ∀ a : Fin 3, win0_2.index t a * S1x512x64.size a ≤ (i a).val ∧ (i a).val < win0_2.index t a * S1x512x64.size a + S1x512x64.size a := by
  show i ∈ ((View.whole main_v6).slice (win0_2.rect t)).set ↔ _
  rw [View.set_slice_whole, Rect.mem_set_unit]
  exact Iff.rfl

/-- Every element of the result array lies in the block of the point (its slab, its row / 512). -/
theorem cover (i : S32x2048x64.Idx) : ∃ t : Fin cfg0.N, (cfg0.win 2).flush t = true ∧ i ∈ ((cfg0.win 2).blk t).view.set := by
  have hi0 : (i 0).val < 32 := (i 0).isLt
  have hi1 : (i 1).val < 2048 := (i 1).isLt
  have hi2 : (i 2).val < 64 := (i 2).isLt
  have hlt : (i 0).val * 4 + (i 1).val / 512 < cfg0.N := by
    show _ < grid0.N
    rw [N_0]; omega
  obtain ⟨e0, e1, e2, e3, e4, e5, e6, e7, e8⟩ := idx_facts ⟨(i 0).val * 4 + (i 1).val / 512, hlt⟩
  refine ⟨⟨(i 0).val * 4 + (i 1).val / 512, hlt⟩, flush0_2 _, ?_⟩
  rw [mem_blk]
  intro a
  match a with
  | ⟨0, _⟩ =>
    show win0_2.index ⟨(i 0).val * 4 + (i 1).val / 512, hlt⟩ (0 : Fin 3) * 1 ≤ (i 0).val ∧ (i 0).val < win0_2.index ⟨(i 0).val * 4 + (i 1).val / 512, hlt⟩ (0 : Fin 3) * 1 + 1
    rw [e6]; show ((i 0).val * 4 + (i 1).val / 512) / 4 * 1 ≤ (i 0).val ∧ (i 0).val < ((i 0).val * 4 + (i 1).val / 512) / 4 * 1 + 1
    omega
  | ⟨1, _⟩ =>
    show win0_2.index ⟨(i 0).val * 4 + (i 1).val / 512, hlt⟩ (1 : Fin 3) * 512 ≤ (i 1).val ∧ (i 1).val < win0_2.index ⟨(i 0).val * 4 + (i 1).val / 512, hlt⟩ (1 : Fin 3) * 512 + 512
    rw [e7]; show ((i 0).val * 4 + (i 1).val / 512) % 4 * 512 ≤ (i 1).val ∧ (i 1).val < ((i 0).val * 4 + (i 1).val / 512) % 4 * 512 + 512
    omega
  | ⟨2, _⟩ =>
    show win0_2.index ⟨(i 0).val * 4 + (i 1).val / 512, hlt⟩ (2 : Fin 3) * 64 ≤ (i 2).val ∧ (i 2).val < win0_2.index ⟨(i 0).val * 4 + (i 1).val / 512, hlt⟩ (2 : Fin 3) * 64 + 64
    rw [e8]; omega

/-- THE RESULT ARRAY after the region: `slabs` of the two arrays the region finds. -/
theorem final (c : Dev nD) : (dats m 0 c).arrAt 2 cfg0.N = slabs (V m c main_v0) (V m c main_v5) :=
  (dats m 0 c).arrAt_eq_of_cover 2 _ (fun t _ => flushed_eq m c t) cover

/-- The kernel's result, as a function of the two arguments: element (a, b, r, d) is the row function of row r of slab (a, b)
    of the scores and column d of slab (a, b) of the values. -/
def kernelOut (x : S2x16x2048x2048.Idx → EReal) (v : S2x16x2048x64.Idx → EReal) : S2x16x2048x64.Idx → EReal := fun i =>
  Cert.Rows.kerRow (fun k : Fin 2048 => x (ix4 (⟨(i 0).val, (i 0).isLt⟩ : Fin 2) (⟨(i 1).val, (i 1).isLt⟩ : Fin 16) (⟨(i 2).val, (i 2).isLt⟩ : Fin 2048) k))
    (fun k : Fin 2048 => v (ix4 (⟨(i 0).val, (i 0).isLt⟩ : Fin 2) (⟨(i 1).val, (i 1).isLt⟩ : Fin 16) k (⟨(i 3).val, (i 3).isLt⟩ : Fin 64)))

/-- What the last host line leaves in the result buffer: the regrouping of `slabs`, which is `kernelOut` of the arguments. -/
theorem result_eq (c : Dev nD) :
    (Pipeline.afterTail₀ cfgs (dats m) 0 (V0 m) [hostOps1] c main_v7 : S2x16x2048x64.Idx → EReal)
      = kernelOut (m ((c : Thread nD τ).loc main_arg0)) (m ((c : Thread nD τ).loc main_arg1)) := by
  unfold Pipeline.afterTail₀
  show StableHlo.after hostOps1 _ (Proc.devRef .tc main_v7) = _
  after_results
  rw [show Pipeline.withArrays spec0 c (V0 m c) (fun w => (dats m 0 c).arrAt w cfg0.N) (Proc.devRef .tc main_v6) = slabs (V m c main_v0) (V m c main_v5) from
    (Pipeline.withArrays_arr spec0 launch0.win.arr_inj c _ _ 2).trans (final m c)]
  funext i
  obtain ⟨a, b, r, d, rfl⟩ : ∃ (a : Fin 2) (b : Fin 16) (r : Fin 2048) (d : Fin 64), i = ix4 a b r d := ⟨i 0, i 1, i 2, i 3, eq_ix4 i⟩
  show shapeCast S2x16x2048x64 (slabs (V m c main_v0) (V m c main_v5)) shapeCasts_S32x2048x64_S2x16x2048x64 (ix4 a b r d) = _
  rw [shapeCast_apply _ shapeCasts_S32x2048x64_S2x16x2048x64 (ix4 a b r d) (ix3 (⟨a.val * 16 + b.val, by omega⟩ : Fin 32) r d) (by
    rw [Shape.rowMajor_val_three, Shape.rowMajor_val_four]
    show ((a.val * 16 + b.val) * 2048 + r.val) * 64 + d.val = ((a.val * 16 + b.val) * 2048 + r.val) * 64 + d.val
    rfl)]
  unfold slabs kernelOut
  refine congrArg₂ Cert.Rows.kerRow (funext fun k => ?_) (funext fun k => ?_)
  · exact scores_apply m c a b r k
  · exact values_apply m c a b k d

/-- THE KERNEL'S RUN, READ: every weakly fair execution of @main terminates without a fault, the result buffer ends at
    `kernelOut` of the two arguments as launched, and the arguments end unchanged. -/
theorem run : θ_run defs (onTc (τ := τ) (main (F := Ideal))) ⟨m, fun _ => 0, ρ⟩ (fun r => ∀ c : Dev nD,
      r.2.mem ((c.tc : Thread nD τ).loc main_v7) = kernelOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v7 (Pipeline.mem_restRefs_of main_v7 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

end Cert.KernelIdeal.Result

end
-- ==== Proof.RefRow.lean ====
/-
  The reference program's result, read at one index (a, b, r, d), is the reference row of Rows: with the scores the row
  s k = x (a, b, r, k) and the values the column w k = v (a, b, k, d), it is
  ∑ k, (exp (s k - max (−∞) μ) / (0 + ∑ k', exp (s k' - max (−∞) μ))) · w k, where μ is the fold of max over the row from −∞.

  Each operation is read at an index from its operands at an index; the one reduction with a maximum body is read as the
  fold of max over the coordinates of the reduced axis.  The index functions the layout operations compose are identified
  with the literal-coordinate indices coordinate by coordinate.
-/
import proofs.«126663_j85624468013185_2_alg».proof.Proof.Rows
import proofs.«126663_j85624468013185_2_alg».proof.Proof.Gen.ReferenceIdeal.Read
import Idealize.ShloMosaic.Lib.ValueIdx
import Idealize.ShloMosaic.PureOps.Ideal.Laws
import Idealize.ShloMosaic.PureOps.Reduce

noncomputable section

open scoped BigOperators

namespace Cert.ReferenceIdeal.RefRow

open Cert.ReferenceIdeal Cert.ReferenceIdeal.Gen Cert.ReferenceIdeal.Read Idealize.ShloMosaic Idealize.ShloMosaic.ValueIdx

/-- The reduction with a maximum body over the last axis, at (j 0, j 1, j 2): the largest score of that row, folded from −∞. -/
theorem val_main_v0_apply (x : FVec Ideal S2x16x2048x2048 .f32) (j : S2x16x2048.Idx) :
    Read.val_main_v0 (F := Ideal) x j = Cert.Rows.rowMax (fun k : Fin 2048 => x (ix4 (j 0) (j 1) (j 2) k)) := by
  have h : S2x16x2048x2048.Reduces [3] S2x16x2048 := by decide
  unfold Read.val_main_v0 Cert.Rows.rowMax
  refine (Host.reduce_eq_fold_single FloatOps.maximumf x (Read.val_main_cst (F := Ideal))
    Facts₀.reducesTo_S2x16x2048x2048_S2x16x2048_d3 h Facts₀.h_S_ j).trans ?_
  have e : (x ∘ h.lift j) = fun k : Fin 2048 => x (ix4 (j 0) (j 1) (j 2) k) :=
    funext fun k => congrArg x (funext fun a => Fin.ext (by
      match a with | ⟨0, _⟩ => rfl | ⟨1, _⟩ => rfl | ⟨2, _⟩ => rfl | ⟨3, _⟩ => rfl))
  rw [e]
  rfl

/-- The row maximum taken once more against −∞, at (a, b, r). -/
theorem v2_ix (x : FVec Ideal S2x16x2048x2048 .f32) (a : Fin 2) (b : Fin 16) (r : Fin 2048) :
    Read.val_main_v2 (F := Ideal) x (ix3 a b r)
      = max (Ideal.ofBits .f32 0xFF800000#32) (Cert.Rows.rowMax (fun k : Fin 2048 => x (ix4 a b r k))) := by
  rw [val_main_v2_apply, val_main_v1_apply, val_main_cst_0_apply, val_main_v0_apply]
  rfl

/-- The same value broadcast along the row. -/
theorem v4_ix (x : FVec Ideal S2x16x2048x2048 .f32) (a : Fin 2) (b : Fin 16) (r k : Fin 2048) :
    Read.val_main_v4 (F := Ideal) x (ix4 a b r k)
      = max (Ideal.ofBits .f32 0xFF800000#32) (Cert.Rows.rowMax (fun k : Fin 2048 => x (ix4 a b r k))) := by
  have e : idx_main_v3 (idx_main_v4 (ix4 a b r k)) = ix3 a b r := funext fun e => Fin.ext (by
    match e with | ⟨0, _⟩ => rfl | ⟨1, _⟩ => rfl | ⟨2, _⟩ => rfl)
  rw [val_main_v4_apply, val_main_v3_apply, e, v2_ix]

/-- The unnormalised weight at (a, b, r, k). -/
theorem v6_ix (x : FVec Ideal S2x16x2048x2048 .f32) (a : Fin 2) (b : Fin 16) (r k : Fin 2048) :
    Read.val_main_v6 (F := Ideal) x (ix4 a b r k)
      = Ideal.exp (x (ix4 a b r k)
          - max (Ideal.ofBits .f32 0xFF800000#32) (Cert.Rows.rowMax (fun k : Fin 2048 => x (ix4 a b r k)))) := by
  rw [val_main_v6_apply, val_main_v5_apply, v4_ix]
  rfl

/-- The sum of the row's weights, started at 0.0, at (a, b, r). -/
theorem v7_ix (x : FVec Ideal S2x16x2048x2048 .f32) (a : Fin 2) (b : Fin 16) (r : Fin 2048) :
    Read.val_main_v7 (F := Ideal) x (ix3 a b r)
      = Ideal.ofBits .f32 0x00000000#32 + ∑ k' : Fin 2048, Ideal.exp (x (ix4 a b r k')
          - max (Ideal.ofBits .f32 0xFF800000#32) (Cert.Rows.rowMax (fun k : Fin 2048 => x (ix4 a b r k)))) := by
  rw [val_main_v7_apply]
  refine congrArg₂ (· + ·) rfl (Finset.sum_congr rfl fun k' _ => ?_)
  have e : idx_main_v7 (ix3 a b r) k' = ix4 a b r k' := funext fun e => Fin.ext (by
    match e with | ⟨0, _⟩ => rfl | ⟨1, _⟩ => rfl | ⟨2, _⟩ => rfl | ⟨3, _⟩ => rfl)
  rw [e, v6_ix]

/-- The normalised weight at (a, b, r, k). -/
theorem v10_ix (x : FVec Ideal S2x16x2048x2048 .f32) (a : Fin 2) (b : Fin 16) (r k : Fin 2048) :
    Read.val_main_v10 (F := Ideal) x (ix4 a b r k)
      = Ideal.div (Ideal.exp (x (ix4 a b r k)
          - max (Ideal.ofBits .f32 0xFF800000#32) (Cert.Rows.rowMax (fun k : Fin 2048 => x (ix4 a b r k)))))
        (Ideal.ofBits .f32 0x00000000#32 + ∑ k' : Fin 2048, Ideal.exp (x (ix4 a b r k')
          - max (Ideal.ofBits .f32 0xFF800000#32) (Cert.Rows.rowMax (fun k : Fin 2048 => x (ix4 a b r k))))) := by
  have e : idx_main_v8 (idx_main_v9 (ix4 a b r k)) = ix3 a b r := funext fun e => Fin.ext (by
    match e with | ⟨0, _⟩ => rfl | ⟨1, _⟩ => rfl | ⟨2, _⟩ => rfl)
  rw [val_main_v10_apply, val_main_v9_apply, val_main_v8_apply, e, v7_ix, v6_ix]
  rfl

/-- The result at literal coordinates. -/
theorem result_ix (x : FVec Ideal S2x16x2048x2048 .f32) (v : FVec Ideal S2x16x2048x64 .f32)
    (a : Fin 2) (b : Fin 16) (r : Fin 2048) (d : Fin 64) :
    Read.val_main_v11 (F := Ideal) x v (ix4 a b r d)
      = Cert.Rows.refRow (fun k : Fin 2048 => x (ix4 a b r k)) (fun k : Fin 2048 => v (ix4 a b k d)) := by
  rw [val_main_v11_apply]
  unfold Cert.Rows.refRow
  refine Finset.sum_congr rfl fun k _ => ?_
  have el : lidx_main_v11 (ix4 a b r d) k = ix4 a b r k := funext fun e => Fin.ext (by
    match e with | ⟨0, _⟩ => rfl | ⟨1, _⟩ => rfl | ⟨2, _⟩ => rfl | ⟨3, _⟩ => rfl)
  have er : ridx_main_v11 (ix4 a b r d) k = ix4 a b k d := funext fun e => Fin.ext (by
    match e with | ⟨0, _⟩ => rfl | ⟨1, _⟩ => rfl | ⟨2, _⟩ => rfl | ⟨3, _⟩ => rfl)
  rw [el, er, v10_ix]

/-- The reference program's result at an index is the reference row of that index's scores and values. -/
theorem result_apply (x : FVec Ideal S2x16x2048x2048 .f32) (v : FVec Ideal S2x16x2048x64 .f32) (i : S2x16x2048x64.Idx) :
    Read.val_main_v11 (F := Ideal) x v i
      = Cert.Rows.refRow (fun k : Fin 2048 => x (ix4 (i 0) (i 1) (i 2) k)) (fun k : Fin 2048 => v (ix4 (i 0) (i 1) k (i 3))) := by
  obtain ⟨a, b, r, d, rfl⟩ : ∃ a b r d, i = ix4 a b r d := ⟨i 0, i 1, i 2, i 3, eq_ix4 i⟩
  exact result_ix x v a b r d

end Cert.ReferenceIdeal.RefRow

end
-- ==== Proof.RowLaw.lean ====
/-
  The two normalisations of one attention row agree when every score and every value is a real number.

  With real scores `a k` over a finite nonempty range the fold of `max` from −∞ is a real `μ` (which real does not matter
  for the law).  Then every weight `exp (a k - μ)` is a positive real `E k`, the sum `L = ∑ E k` is a positive real, and
  dividing by `L` is multiplying by the real `1 / L`.  Both rows are then coercions of real numbers, and the real identity
  `(∑ E k · b k) · (1 / L) = ∑ (E k · (1 / L)) · b k` is distributivity.
-/
import proofs.«126663_j85624468013185_2_alg».proof.Proof.Rows
import Idealize.ShloMosaic.PureOps.Ideal.Laws

noncomputable section

open scoped BigOperators

namespace Cert.Rows

open Idealize.ShloMosaic

/-- A finite sum of coerced reals is the coercion of the real sum. -/
theorem coe_sum {ι : Type} (S : Finset ι) (f : ι → ℝ) :
    (∑ k ∈ S, ((f k : ℝ) : EReal)) = ((∑ k ∈ S, f k : ℝ) : EReal) := by
  classical
  refine Finset.induction_on S ?_ ?_
  · simp
  · intro i s hi ih
    rw [Finset.sum_insert hi, Finset.sum_insert hi, ih, EReal.coe_add]

/-- The fold of `max` from −∞ over a nonempty finite family of reals is a real. -/
theorem fold_max_real {ι : Type} (a : ι → ℝ) (S : Finset ι) :
    S.Nonempty → ∃ μ : ℝ, S.fold max (⊥ : EReal) (fun k => (a k : EReal)) = (μ : EReal) := by
  classical
  refine Finset.induction_on S ?_ ?_
  · intro h; exact absurd h Finset.not_nonempty_empty
  · intro i s hi ih _
    rw [Finset.fold_insert hi]
    rcases s.eq_empty_or_nonempty with hs | hs
    · subst hs
      exact ⟨a i, by rw [Finset.fold_empty, max_bot_right]⟩
    · obtain ⟨μ, hμ⟩ := ih hs
      rw [hμ]
      rcases le_total (a i) μ with h | h
      · exact ⟨μ, max_eq_right (EReal.coe_le_coe_iff.2 h)⟩
      · exact ⟨a i, max_eq_left (EReal.coe_le_coe_iff.2 h)⟩

/-- On real scores and real values the kernel's row and the reference's row are the same extended real. -/
theorem kerRow_eq_refRow {ι : Type} [Fintype ι] [Nonempty ι] (s w : ι → EReal)
    (hs : ∀ k, ∃ r : ℝ, s k = (r : EReal)) (hw : ∀ k, ∃ r : ℝ, w k = (r : EReal)) : kerRow s w = refRow s w := by
  choose a ha using hs
  choose b hb using hw
  obtain rfl : s = fun k => (a k : EReal) := funext ha
  obtain rfl : w = fun k => (b k : EReal) := funext hb
  -- the three literal words
  have hbot : Ideal.ofBits .f32 0xFF800000#32 = (⊥ : EReal) := by simp [Ideal.ofBits, Ideal.ieee]
  have hone : Ideal.ofBits .bf16 0x3F80#16 = (1 : EReal) := by
    simp [Ideal.ofBits, Ideal.ieee, -EReal.coe_mul]; norm_num
  -- the row maximum is a real μ
  obtain ⟨μ, hμ⟩ : ∃ μ : ℝ, rowMax (fun k => (a k : EReal)) = (μ : EReal) := by
    unfold rowMax
    rw [hbot]
    exact fold_max_real a Finset.univ Finset.univ_nonempty
  -- the weights are positive reals E k, their sum a positive real L
  have hE : ∀ k, Ideal.exp ((a k : EReal) - (μ : EReal)) = ((Real.exp (a k - μ) : ℝ) : EReal) := fun k => by
    rw [← EReal.coe_sub]; rfl
  have hL : (∑ k, Real.exp (a k - μ)) ≠ 0 :=
    ne_of_gt (Finset.sum_pos (fun k _ => Real.exp_pos _) Finset.univ_nonempty)
  unfold kerRow refRow
  rw [hμ, hbot, hone, Ideal.ofBits_zero_f32, max_bot_left]
  simp only [hE, mul_one, zero_add, coe_sum, ← EReal.coe_mul, Ideal.div_coe hL]
  rw [EReal.coe_eq_coe_iff, Finset.sum_mul]
  exact Finset.sum_congr rfl (fun k _ => by ring)

end Cert.Rows

end
-- ==== Proof.Finite.lean ====
/-
  From the printed precondition to "every entry is a real number".

  The precondition forms, for each of the two arrays, the conjunction over all entries of the comparison `|x| < +∞`, and
  then the conjunction of the two results.  If the final word is 1, every comparison word is 1.  On the extended reals
  `|x| = max x (-x)`; at `x = ⊥` and at `x = ⊤` this is `⊤`, which is not below `⊤`, so the comparison word is 0 there:
  an entry whose comparison word is 1 is a real number.
-/
import proofs.«126663_j85624468013185_2_alg».proof.Pre_finite_inputs
import proofs.«126663_j85624468013185_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic

/-- The shape with no axes has exactly one index. -/
instance : Subsingleton Cert.Pre_finite_inputs.S_.Idx := ⟨fun a b => funext fun d => d.elim0⟩

/-- An extended real whose absolute value compares strictly below `+∞` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the printed precondition holds of two arrays, every entry of both is a real number. -/
theorem reals_of_pre (x0 : FVec Ideal Cert.Pre_finite_inputs.S2x16x2048x2048 .f32)
    (x1 : FVec Ideal Cert.Pre_finite_inputs.S2x16x2048x64 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.Finite

end
-- ==== Proof.lean ====
/-
  The kernel computes attention's last step, softmax(scores) · values, one block of 512 query rows at a time, with the
  normalisation deferred: it multiplies the unnormalised weights `exp (s - max s)` into the values widened by a column of
  ones, so that one product yields both `∑ e·v` and `∑ e`, and divides the two.  The reference normalises the weights
  first and multiplies afterwards.  On the extended reals the two agree when every input is a real number: then each
  row's maximum is a real, every weight a positive real, their sum a nonzero real, and `(∑ e·v) / L = ∑ (e / L)·v` is
  the distributive law in ℝ.  With an infinite score the law fails (the weights' sum is no longer a nonzero real), which
  is why the precondition is used.

  The three frames: each kernel program's @main runs to the end with its arguments never written (the run of the
  region, the same text at both instances); the reference's is its run with the result dropped.  Nothing was rewritten
  between the kernel and its idealization, so `preserves` is `True`.  For `algebraic` both runs end at ONE function of
  the arguments: the kernel's result element by element is the kernel's row function, the reference's is the reference's
  row function, and the row law joins them under finiteness.
-/
import proofs.«126663_j85624468013185_2_alg».proof.Defs
import proofs.«126663_j85624468013185_2_alg».proof.Proof.Gen.Kernel
import proofs.«126663_j85624468013185_2_alg».proof.Proof.Gen.KernelIdeal
import proofs.«126663_j85624468013185_2_alg».proof.Proof.Gen.ReferenceIdeal
import proofs.«126663_j85624468013185_2_alg».proof.Proof.Gen.Pre_finite_inputs
import proofs.«126663_j85624468013185_2_alg».proof.Proof.Gen.ReferenceIdeal.Run
import proofs.«126663_j85624468013185_2_alg».proof.Proof.Gen.ReferenceIdeal.Read
import proofs.«126663_j85624468013185_2_alg».proof.Proof.KernelRegion
import proofs.«126663_j85624468013185_2_alg».proof.Proof.KernelArray
import proofs.«126663_j85624468013185_2_alg».proof.Proof.RefRow
import proofs.«126663_j85624468013185_2_alg».proof.Proof.RowLaw
import proofs.«126663_j85624468013185_2_alg».proof.Proof.Finite

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `kernelOut` of the arguments: the kernel by its run; the reference because its result element
    (a, b, r, d) is the reference's row function of the same row of scores and column of values, which the row law turns
    into the kernel's, every entry being a real number under the precondition. -/
theorem algebraic : Cert.algebraic_KernelIdeal_ReferenceIdeal := by
  intro m ρ m' ρ' hpre hagree
  refine ⟨fun c => Cert.KernelIdeal.Result.kernelOut (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v11_eq]
  obtain ⟨hx, hv⟩ := Cert.Finite.reals_of_pre _ _ (hpre c)
  funext i
  rw [Cert.ReferenceIdeal.RefRow.result_apply]
  exact (Cert.Rows.kerRow_eq_refRow _ _ (fun k => hx _) (fun k => hv _)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
